-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S2x16x2048x2048 : Shape := ⟨4, ![2, 16, 2048, 2048]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel

variable [Facts]

def fn {F : FTy → Type} [FloatOps F] (main_arg0 : FVec F S2x16x2048x64 .f32) (main_arg1 : FVec F S2x16x2048x64 .f32) (main_arg2 : FVec F S2x16x2048x64 .f32) (main_arg3 : IVec S2x16x2048x2048 1) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  main_v13
-- ==== Kernel.lean ====
abbrev S2x16x2048x64 : Shape := ⟨4, ![2, 16, 2048, 64]⟩
abbrev S2x16x2048x2048 : Shape := ⟨4, ![2, 16, 2048, 2048]⟩
abbrev S1x1x512x64 : Shape := ⟨4, ![1, 1, 512, 64]⟩
abbrev S1x1x2048x64 : Shape := ⟨4, ![1, 1, 2048, 64]⟩
abbrev S1x1x512x2048 : Shape := ⟨4, ![1, 1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x16x2048x2048, .i1⟩
  | .hbm, ⟨4, _⟩ => ⟨S2x16x2048x2048, .i32⟩
  | .hbm, ⟨5, _⟩ => ⟨S2x16x2048x64, .f32⟩
  | .hbm, ⟨6, _⟩ => ⟨S2x16x2048x2048, .f32⟩
  | .local _ .vmem, ⟨0, _⟩ => ⟨S1x1x512x64, .f32⟩
  | .local _ .vmem, ⟨1, _⟩ => ⟨S1x1x512x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x512x2048, .i32⟩
  | .local _ .vmem, ⟨5, _⟩ => ⟨S1x1x512x2048, .i32⟩
  | .local _ .vmem, ⟨6, _⟩ => ⟨S1x1x512x64, .f32⟩
  | .local _ .vmem, ⟨7, _⟩ => ⟨S1x1x512x64, .f32⟩
  | .local _ .vmem, ⟨8, _⟩ => ⟨S1x1x512x2048, .f32⟩
  | .local _ .vmem, ⟨9, _⟩ => ⟨S1x1x512x2048, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 16, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S1x1x2048x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, false]

abbrev stage0_2 : Fin 1 → Memref sig .tc .vmem S1x1x2048x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 2 → Memref sig .tc .vmem S1x1x512x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  natLt_1_32 : 1 < 32
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  bitsLt_bf16_f32 : FTy.bits .bf16 < FTy.bits .f32
  reduces_S512x2048_S512 : S512x2048.Reduces [1] S512
  shapeCasts_S512_S512x1 : S512.ShapeCasts S512x1
  broadcasts_S512x1_S512x2048 : S512x1.Broadcasts S512x2048
  shapeCasts_S512x2048_S1x1x512x2048 : S512x2048.ShapeCasts S1x1x512x2048
  shapeCasts_S512x64_S1x1x512x64 : S512x64.ShapeCasts S1x1x512x64
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x64.size a ≤ S2x16x2048x64.size a
  hwx0_0 : ∀ i : grid0.Coords, EltTy.bits .f32 = 32 ∨ (Rect.block (s := S2x16x2048x64) S1x1x512x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S2x16x2048x64.size a
  hwx0_1 : ∀ i : grid0.Coords, EltTy.bits .f32 = 32 ∨ (Rect.block (s := S2x16x2048x64) S1x1x2048x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S2x16x2048x64.size a
  hwx0_2 : ∀ i : grid0.Coords, EltTy.bits .f32 = 32 ∨ (Rect.block (s := S2x16x2048x64) S1x1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512x2048.size a ≤ S2x16x2048x2048.size a
  hwx0_3 : ∀ i : grid0.Coords, EltTy.bits .i32 = 32 ∨ (Rect.block (s := S2x16x2048x2048) S1x1x512x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512x64.size a ≤ S2x16x2048x64.size a
  hwx0_4 : ∀ i : grid0.Coords, EltTy.bits .f32 = 32 ∨ (Rect.block (s := S2x16x2048x64) S1x1x512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512x2048.size a ≤ S2x16x2048x2048.size a
  hwx0_5 : ∀ i : grid0.Coords, EltTy.bits .f32 = 32 ∨ (Rect.block (s := S2x16x2048x2048) S1x1x512x2048.size (cc0_transform_5 i) (hinb0_5 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x2048x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S1x1x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S1x1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x16x2048x2048, .i1⟩
  | .hbm, ⟨4, _⟩ => ⟨S2x16x2048x2048, .f32⟩
  | .hbm, ⟨5, _⟩ => ⟨S_, .f32⟩
  | .hbm, ⟨6, _⟩ => ⟨S2x16x2048x2048, .f32⟩
  | .hbm, ⟨7, _⟩ => ⟨S2x16x2048x2048, .f32⟩
  | .hbm, ⟨8, _⟩ => ⟨S_, .f32⟩
  | .hbm, ⟨9, _⟩ => ⟨S_, .f32⟩
  | .hbm, ⟨10, _⟩ => ⟨S2x16x2048x2048, .f32⟩
  | .hbm, ⟨11, _⟩ => ⟨S2x16x2048x2048, .f32⟩
  | .hbm, ⟨12, _⟩ => ⟨S_, .f32⟩
  | .hbm, ⟨13, _⟩ => ⟨S2x16x2048, .f32⟩
  | .hbm, ⟨14, _⟩ => ⟨S_, .f32⟩
  | .hbm, ⟨15, _⟩ => ⟨S2x16x2048, .f32⟩
  | .hbm, ⟨16, _⟩ => ⟨S2x16x2048, .f32⟩
  | .hbm, ⟨17, _⟩ => ⟨S2x16x2048x1, .f32⟩
  | .hbm, ⟨18, _⟩ => ⟨S2x16x2048x2048, .f32⟩
  | .hbm, ⟨19, _⟩ => ⟨S2x16x2048x2048, .f32⟩
  | .hbm, ⟨20, _⟩ => ⟨S2x16x2048x2048, .f32⟩
  | .hbm, ⟨21, _⟩ => ⟨S_, .f32⟩
  | .hbm, ⟨22, _⟩ => ⟨S2x16x2048, .f32⟩
  | .hbm, ⟨23, _⟩ => ⟨S2x16x2048x1, .f32⟩
  | .hbm, ⟨24, _⟩ => ⟨S2x16x2048x2048, .f32⟩
  | .hbm, ⟨25, _⟩ => ⟨S2x16x2048x2048, .f32⟩
  | .hbm, ⟨26, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Attention.lean ====
/-
  One row of masked softmax attention on the extended reals, and the two arrays an attention layer returns.

  A query row `q` (D numbers) meets N keys (rows of D numbers). The score of key `k` is the inner product
  `Σ_d q(d) · key(k, d)` scaled by 1/8 (the word 0x3E000000), replaced by the fill −10⁹ (the word 0xCE6E6B28) where
  the mask bit of `k` is set. The row's maximum is the fold of `max` over the scores from −∞ (the word
  0xFF800000). The unnormalised weight of key `k` is `exp (score k − max)`, the row's normaliser their sum, the
  weight of `k` their quotient, and entry `d` of the context row is `Σ_k weight(k) · value(k, d)`.

  For arrays `Q K V : [2, 16, 2048, 64]` and a mask `M : [2, 16, 2048, 2048]` of bits, entry `(b, h, q, k)` of the
  weights is the weight of key `k` in the row whose query is row `q` of `Q(b, h)`, whose keys are the rows of
  `K(b, h)` and whose mask is row `q` of `M(b, h)`; entry `(b, h, q, d)` of the context is entry `d` of that row's
  context against the rows of `V(b, h)`. Nothing here mentions a program.
-/
import Idealize.ShloMosaic.PureOps.Ideal
import Idealize.ShloMosaic.Lib.ValueIdx

noncomputable section

namespace Cert.Attention

open Idealize.ShloMosaic Idealize.ShloMosaic.ValueIdx

/-! ## One row -/

section Row
variable {D N : ℕ} (qrow : Fin D → EReal) (keys : Fin N → Fin D → EReal) (mrow : Fin N → BitVec 1)

/-- The masked, scaled score of key `k`. -/
def score (k : Fin N) : EReal :=
  Scalar.select (mrow k) (Ideal.ofBits .f32 0xCE6E6B28#32)
    ((∑ d : Fin D, qrow d * keys k d) * Ideal.ofBits .f32 0x3E000000#32)

/-- The row's largest score (from −∞). -/
def rowMax : EReal :=
  (Finset.univ : Finset (Fin N)).fold max (Ideal.ofBits .f32 0xFF800000#32) (fun k => score qrow keys mrow k)

/-- The unnormalised weight of key `k`. -/
def unnorm (k : Fin N) : EReal := Ideal.exp (score qrow keys mrow k - rowMax qrow keys mrow)

/-- The row's normaliser. -/
def rowSum : EReal := ∑ k : Fin N, unnorm qrow keys mrow k

/-- The weight of key `k`. -/
def weight (k : Fin N) : EReal := Ideal.div (unnorm qrow keys mrow k) (rowSum qrow keys mrow)

/-- Entry `d` of the row's context: the weighted sum of the values' column `d`. -/
def context {E : ℕ} (vals : Fin N → Fin E → EReal) (d : Fin E) : EReal :=
  ∑ k : Fin N, weight qrow keys mrow k * vals k d

end Row

/-! ## The arrays -/

abbrev SQ : Shape := ⟨4, ![2, 16, 2048, 64]⟩
abbrev SM : Shape := ⟨4, ![2, 16, 2048, 2048]⟩

/-- Row `q` of the matrix `X(b, h)`. -/
def rowOf {α : Type} {n : ℕ} (X : (⟨4, ![2, 16, 2048, n]⟩ : Shape).Idx → α) (b : Fin 2) (h : Fin 16) (q : Fin 2048) :
    Fin n → α := fun d => X (ix4 b h q d)

/-- The matrix `X(b, h)`, row by row. -/
def matOf {α : Type} {n : ℕ} (X : (⟨4, ![2, 16, 2048, n]⟩ : Shape).Idx → α) (b : Fin 2) (h : Fin 16) :
    Fin 2048 → Fin n → α := fun k d => X (ix4 b h k d)

/-- The attention weights of the whole layer. -/
def weights (Q K : SQ.Idx → EReal) (M : SM.Idx → BitVec 1) : SM.Idx → EReal := fun i =>
  weight (rowOf Q (i 0) (i 1) (i 2)) (matOf K (i 0) (i 1)) (rowOf M (i 0) (i 1) (i 2)) (i 3)

/-- The context of the whole layer. -/
def contexts (Q K V : SQ.Idx → EReal) (M : SM.Idx → BitVec 1) : SQ.Idx → EReal := fun i =>
  context (rowOf Q (i 0) (i 1) (i 2)) (matOf K (i 0) (i 1)) (rowOf M (i 0) (i 1) (i 2)) (matOf V (i 0) (i 1)) (i 3)

theorem weights_apply (Q K : SQ.Idx → EReal) (M : SM.Idx → BitVec 1) (b : Fin 2) (h : Fin 16) (q k : Fin 2048) :
    weights Q K M (ix4 b h q k) = weight (rowOf Q b h q) (matOf K b h) (rowOf M b h q) k := rfl

theorem contexts_apply (Q K V : SQ.Idx → EReal) (M : SM.Idx → BitVec 1) (b : Fin 2) (h : Fin 16) (q : Fin 2048)
    (d : Fin 64) :
    contexts Q K V M (ix4 b h q d) = context (rowOf Q b h q) (matOf K b h) (rowOf M b h q) (matOf V b h) d := rfl

/-- A maximum taken from a start value is no smaller than it, so taking it against the start value once more changes
    nothing. -/
theorem max_fold_max_self {ι : Type} (s : Finset ι) (a : EReal) (f : ι → EReal) :
    max a (s.fold max a f) = s.fold max a f :=
  max_eq_right ((Finset.le_fold_max a).mpr (Or.inl le_rfl))

end Cert.Attention

end
-- ==== Proof.LibRowsByRows.lean ====
/-
  Two layout facts and one product that an attention kernel's block meets, each read at an index written by its coordinates.

  A block `[1, 1, a, b]` that carries one batch and one head is cast to the matrix `[a, b]` (and a result matrix back):
  both casts keep the row-major position, so entry `(i, j)` of the matrix is entry `(0, 0, i, j)` of the block. The
  scores `q · kᵀ` are a product of an `[m, K]` matrix with an `[n, K]` matrix contracting the two SECOND axes (the keys are
  stored row by row, not transposed): at the ideal values, into the zero splat, entry `(p, q)` is the inner product of row
  `p` of the left operand with row `q` of the right one, `Σ_k l(p, k) · r(q, k)`. The record is given literally over any
  well-formedness witness, so a printed record of that form is an instance by unfolding its name. Nothing here mentions a
  program.
-/
import Idealize.ShloMosaic.PureOps.Ideal.Laws
import Idealize.ShloMosaic.Lib.Pipeline.Value
import Idealize.ShloMosaic.Lib.ValueIdx

noncomputable section

namespace Cert.RowsByRows

open Idealize.ShloMosaic Idealize.ShloMosaic.ValueIdx

/-! ## Two unit axes dropped or added by a shape cast -/

/-- A `[1, 1, a, b]` array cast to `[a, b]` reads, at `(i, j)`, the operand at `(0, 0, i, j)`. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, v, i, j)`, the operand at `(i, j)`. -/
theorem shapeCast_ab_11ab_apply {α : Type} {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-! ## A product with the right operand's rows: axis 1 contracted with axis 1 -/

/-- The literal record of an `[m, K] × [n, K]` product contracting the two second axes. -/
abbrev rowsByRows {m K n : ℕ}
    (wf : DotDims.WF (⟨2, ![m, K]⟩ : Shape) (⟨2, ![n, K]⟩ : Shape) (⟨2, ![m, n]⟩ : Shape) [1] [1] [0] [0] [] []) :
    DotDims (⟨2, ![m, K]⟩ : Shape) (⟨2, ![n, K]⟩ : Shape) (⟨2, ![m, n]⟩ : Shape) :=
  { lhsContracting := [1], rhsContracting := [1], lhsNonContracting := [0], rhsNonContracting := [0],
    lhsBatch := [], rhsBatch := [], wf := wf }

section
variable {m K n : ℕ}
  (wf : DotDims.WF (⟨2, ![m, K]⟩ : Shape) (⟨2, ![n, K]⟩ : Shape) (⟨2, ![m, n]⟩ : Shape) [1] [1] [0] [0] [] [])
  (j : (⟨2, ![m, n]⟩ : Shape).Idx) (k : (rowsByRows wf).contr.Idx)

/-- The left operand's row is the result's row. -/
theorem rbr_lhs_row : ((rowsByRows wf).lhsIdx j k 0).val = (j 0).val := by
  unfold DotDims.lhsIdx
  rw [dif_neg (show ¬(0 : Fin (⟨2, ![m, K]⟩ : Shape).rank) ∈ (rowsByRows wf).lhsBatch from List.not_mem_nil),
    dif_pos (show (0 : Fin (⟨2, ![m, K]⟩ : Shape).rank) ∈ (rowsByRows wf).lhsNonContracting from List.mem_singleton.mpr rfl)]
  rfl

/-- The left operand's column is the contracted coordinate. -/
theorem rbr_lhs_col : ((rowsByRows wf).lhsIdx j k 1).val = (k ⟨0, Nat.one_pos⟩).val :=
  (rowsByRows wf).lhsIdx_val_of_single rfl j k

/-- The right operand's row is the result's column. -/
theorem rbr_rhs_row : ((rowsByRows wf).rhsIdx j k 0).val = (j 1).val := by
  unfold DotDims.rhsIdx
  rw [dif_neg (show ¬(0 : Fin (⟨2, ![n, K]⟩ : Shape).rank) ∈ (rowsByRows wf).rhsBatch from List.not_mem_nil),
    dif_pos (show (0 : Fin (⟨2, ![n, K]⟩ : Shape).rank) ∈ (rowsByRows wf).rhsNonContracting from List.mem_singleton.mpr rfl)]
  rfl

/-- The right operand's column is the contracted coordinate. -/
theorem rbr_rhs_col : ((rowsByRows wf).rhsIdx j k 1).val = (k ⟨0, Nat.one_pos⟩).val :=
  (rowsByRows wf).rhsIdx_val_of_single rfl j k

end

/-- Entry (p, q) of the product into the zero splat is the inner product of row p of the left operand with row q of
    the right one. -/
theorem matmul_rowsByRows_apply {m K n : ℕ} {φ₁ φ₂ : FTy}
    (wf : DotDims.WF (⟨2, ![m, K]⟩ : Shape) (⟨2, ![n, K]⟩ : Shape) (⟨2, ![m, n]⟩ : Shape) [1] [1] [0] [0] [] [])
    (prec : Option ContractPrecision)
    (l : FVec Ideal (⟨2, ![m, K]⟩ : Shape) φ₁) (r : FVec Ideal (⟨2, ![n, K]⟩ : Shape) φ₂) (p : Fin m) (q : Fin n) :
    FloatOps.matmul (rowsByRows wf) prec l r (constant (⟨2, ![m, n]⟩ : Shape) .f32 0x00000000#32) (ix2 p q)
      = ∑ k : Fin K, l (ix2 p k) * r (ix2 q k) := by
  rw [Ideal.matmul_constant_zero_apply]
  rw [← Equiv.sum_comp (contrEquiv1 (rowsByRows wf) K rfl rfl).symm]
  refine Finset.sum_congr rfl fun k _ => ?_
  have hk := contrEquiv1_symm_val (rowsByRows wf) K rfl rfl k
  have el : (rowsByRows wf).lhsIdx (ix2 p q) ((contrEquiv1 (rowsByRows wf) K rfl rfl).symm k) = ix2 p k :=
    funext fun a => Fin.ext (by
      match a with
      | ⟨0, _⟩ => exact rbr_lhs_row wf _ _
      | ⟨1, _⟩ => exact (rbr_lhs_col wf _ _).trans hk)
  have er : (rowsByRows wf).rhsIdx (ix2 p q) ((contrEquiv1 (rowsByRows wf) K rfl rfl).symm k) = ix2 q k :=
    funext fun a => Fin.ext (by
      match a with
      | ⟨0, _⟩ => exact rbr_rhs_row wf _ _
      | ⟨1, _⟩ => exact (rbr_rhs_col wf _ _).trans hk)
  rw [el, er]

end Cert.RowsByRows

end
-- ==== Proof.LibPlainMatmul.lean ====
/-
  A plain matrix product on the extended reals, read at an entry.

  A `tpu.matmul` of an [m, K] operand by a [K, n] operand — axis 1 of the left contracted with axis 0 of the right, no batch
  axis — accumulated into the f32 zero splat, and the host's `dot_general` of the same form, read at (p, q), are the textbook
  entry  Σ_k l(p, k) · r(k, q).  The dimension
  record is taken in literal form (the six axis lists written out over any well-formedness witness), so a printed record of
  that form is an instance by unfolding its name.  The operands' formats are free: at the ideal values every format is the
  extended reals.
-/
import Idealize.ShloMosaic.PureOps.Ideal.Laws
import Idealize.ShloMosaic.Lib.ValueIdx

noncomputable section

namespace Cert.PlainMatmul

open Idealize.ShloMosaic Idealize.ShloMosaic.ValueIdx

/-- The literal record of a plain [m, K] × [K, n] product. -/
abbrev plain {m K n : ℕ}
    (wf : DotDims.WF (⟨2, ![m, K]⟩ : Shape) (⟨2, ![K, n]⟩ : Shape) (⟨2, ![m, n]⟩ : Shape) [1] [0] [0] [1] [] []) :
    DotDims (⟨2, ![m, K]⟩ : Shape) (⟨2, ![K, n]⟩ : Shape) (⟨2, ![m, n]⟩ : Shape) :=
  { lhsContracting := [1], rhsContracting := [0], lhsNonContracting := [0], rhsNonContracting := [1],
    lhsBatch := [], rhsBatch := [], wf := wf }

section
variable {m K n : ℕ}
  (wf : DotDims.WF (⟨2, ![m, K]⟩ : Shape) (⟨2, ![K, n]⟩ : Shape) (⟨2, ![m, n]⟩ : Shape) [1] [0] [0] [1] [] [])
  (j : (⟨2, ![m, n]⟩ : Shape).Idx) (k : (plain wf).contr.Idx)

/-- The left operand's row is the result's row. -/
theorem lhs_row : ((plain wf).lhsIdx j k 0).val = (j 0).val := by
  unfold DotDims.lhsIdx
  rw [dif_neg (show ¬(0 : Fin (⟨2, ![m, K]⟩ : Shape).rank) ∈ (plain wf).lhsBatch from List.not_mem_nil),
    dif_pos (show (0 : Fin (⟨2, ![m, K]⟩ : Shape).rank) ∈ (plain wf).lhsNonContracting from List.mem_singleton.mpr rfl)]
  rfl

/-- The left operand's column is the contracted coordinate. -/
theorem lhs_col : ((plain wf).lhsIdx j k 1).val = (k ⟨0, Nat.one_pos⟩).val :=
  (plain wf).lhsIdx_val_of_single rfl j k

/-- The right operand's row is the contracted coordinate. -/
theorem rhs_row : ((plain wf).rhsIdx j k 0).val = (k ⟨0, Nat.one_pos⟩).val :=
  (plain wf).rhsIdx_val_of_single rfl j k

/-- The right operand's column is the result's column. -/
theorem rhs_col : ((plain wf).rhsIdx j k 1).val = (j 1).val := by
  unfold DotDims.rhsIdx
  rw [dif_neg (show ¬(1 : Fin (⟨2, ![K, n]⟩ : Shape).rank) ∈ (plain wf).rhsBatch from List.not_mem_nil),
    dif_pos (show (1 : Fin (⟨2, ![K, n]⟩ : Shape).rank) ∈ (plain wf).rhsNonContracting from List.mem_singleton.mpr rfl)]
  rfl

end

/-- The sum over the record's contraction index, re-indexed by the contracted coordinate. -/
theorem contr_sum {m K n : ℕ}
    (wf : DotDims.WF (⟨2, ![m, K]⟩ : Shape) (⟨2, ![K, n]⟩ : Shape) (⟨2, ![m, n]⟩ : Shape) [1] [0] [0] [1] [] [])
    (l : (⟨2, ![m, K]⟩ : Shape).Idx → EReal) (r : (⟨2, ![K, n]⟩ : Shape).Idx → EReal) (p : Fin m) (q : Fin n) :
    (∑ k : (plain wf).contr.Idx, l ((plain wf).lhsIdx (ix2 p q) k) * r ((plain wf).rhsIdx (ix2 p q) k))
      = ∑ k : Fin K, l (ix2 p k) * r (ix2 k q) := by
  rw [← Equiv.sum_comp (contrEquiv1 (plain wf) K rfl rfl).symm]
  refine Finset.sum_congr rfl fun k _ => ?_
  have hk := contrEquiv1_symm_val (plain wf) K rfl rfl k
  have el : (plain wf).lhsIdx (ix2 p q) ((contrEquiv1 (plain wf) K rfl rfl).symm k) = ix2 p k :=
    funext fun a => Fin.ext (by
      match a with
      | ⟨0, _⟩ => exact lhs_row wf _ _
      | ⟨1, _⟩ => exact (lhs_col wf _ _).trans hk)
  have er : (plain wf).rhsIdx (ix2 p q) ((contrEquiv1 (plain wf) K rfl rfl).symm k) = ix2 k q :=
    funext fun a => Fin.ext (by
      match a with
      | ⟨0, _⟩ => exact (rhs_row wf _ _).trans hk
      | ⟨1, _⟩ => exact rhs_col wf _ _)
  rw [el, er]

/-- Entry (p, q) of a kernel's product into the zero splat is the sum over the contracted axis of the entries' products. -/
theorem matmul_zero_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision)
    (l : FVec Ideal (⟨2, ![m, K]⟩ : Shape) φ₁) (r : FVec Ideal (⟨2, ![K, n]⟩ : Shape) φ₂) (p : Fin m) (q : Fin n) :
    FloatOps.matmul (plain wf) prec l r (constant (⟨2, ![m, n]⟩ : Shape) .f32 0x00000000#32) (ix2 p q)
      = ∑ k : Fin K, l (ix2 p k) * r (ix2 k q) := by
  rw [Ideal.matmul_constant_zero_apply]
  exact contr_sum wf l r p q

/-- Entry (p, q) of the host's `dot_general` of the same form, under any schedule key, is the same sum. -/
theorem dotGeneral_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision) (sched : HostSchedule)
    (l : FVec Ideal (⟨2, ![m, K]⟩ : Shape) φ₁) (r : FVec Ideal (⟨2, ![K, n]⟩ : Shape) φ₂) (p : Fin m) (q : Fin n) :
    FloatOps.dotGeneral (plain wf) prec sched l r (ix2 p q) = ∑ k : Fin K, l (ix2 p k) * r (ix2 k q) := by
  rw [Ideal.dotGeneral_apply]
  exact contr_sum wf l r p q

end Cert.PlainMatmul

end
-- ==== Proof.LibRowOps.lean ====
/-
  Rows of a matrix reduced along their lanes, and a column of per-row values spread back over the lanes, each read at an
  index written by its coordinates.

  A softmax over the lanes of an `[a, b]` matrix takes, row by row, a maximum and a sum over the `b` lanes, and
  gives each back to every lane of its row (a vector `[a]` cast to a column `[a, 1]`, then broadcast to `[a, b]`).
  At the ideal values the lane maximum at row `p` is the fold of `max` over `c : Fin b` of the entries `(p, c)`, the
  lane sum the sum over `c` of them, and the spread column reads, at `(p, c)`, the vector at `p`.
  The host's reduction over the MIDDLE axis of an `[n, a, b]` array (a softmax over axis 1) is read the same way:
  at `(k, c)` the fold over `p : Fin a` of the entries `(k, p, c)`.
-/
import Idealize.ShloMosaic.PureOps.Ideal.Laws
import Idealize.ShloMosaic.Lib.Pipeline.Value
import Idealize.ShloMosaic.Lib.ValueIdx

namespace Cert.RowOps

open Idealize.ShloMosaic Idealize.ShloMosaic.ValueIdx

/-- A vector `[a]` cast to the column `[a, 1]` and broadcast over `b` lanes reads, at `(p, c)`, the vector at `p`:
    the column's one lane is lane `0`, and row `p` of the column is entry `p` of the vector. -/
theorem spreadColumn_apply {α : Type} {a b : ℕ} (x : (⟨1, ![a]⟩ : Shape).Idx → α)
    (h1 : (⟨1, ![a]⟩ : Shape).ShapeCasts ⟨2, ![a, 1]⟩) (h2 : (⟨2, ![a, 1]⟩ : Shape).Broadcasts ⟨2, ![a, b]⟩)
    (p : Fin a) (c : Fin b) :
    broadcastTo ⟨2, ![a, b]⟩ (shapeCast ⟨2, ![a, 1]⟩ x h1) h2 (ix2 p c) = x (ix1 p) := by
  refine (broadcastTo_apply _ h2 (ix2 p c) (ix2 p (0 : Fin 1)) fun ax => ?_).trans ?_
  · match ax with
    | ⟨0, _⟩ =>
      show p.val = if a = 1 then 0 else p.val
      split
      · have := p.isLt; omega
      · rfl
    | ⟨1, _⟩ =>
      show 0 = if (1 : ℕ) = 1 then 0 else c.val
      rw [if_pos rfl]
  · exact shapeCast_apply x h1 _ _ (by
      rw [Shape.rowMajor_val_one, Shape.rowMajor_val_two]
      show p.val = p.val * 1 + 0
      omega)

variable {φ : FTy}

/-- The lane maximum of row `p`: the fold of `max`, from the accumulator's value, over the row's `b` entries. -/
theorem laneMax_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun c => src (ix2 p c)) := by
  refine (Ideal.multiReduction_maximumf_single src acc h hφ hacc (ix1 p)).trans ?_
  show (Finset.univ : Finset (Fin b)).fold max (Ideal.ofBits φ acc) (fun c => src (h.lift (ix1 p) c)) = _
  refine congrArg (fun f => (Finset.univ : Finset (Fin b)).fold max (Ideal.ofBits φ acc) f) (funext fun c => ?_)
  exact congrArg src (funext fun ax => Fin.ext (by match ax with | ⟨0, _⟩ => rfl | ⟨1, _⟩ => rfl))

/-- The lane sum of row `p`: the sum of the row's `b` entries. -/
theorem laneSum_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ c : Fin b, src (ix2 p c) := by
  refine (Ideal.multiReduction_add_single src acc h hφ hacc (ix1 p)).trans ?_
  show ∑ c : Fin b, src (h.lift (ix1 p) c) = _
  refine Finset.sum_congr rfl fun c _ => ?_
  exact congrArg src (funext fun ax => Fin.ext (by match ax with | ⟨0, _⟩ => rfl | ⟨1, _⟩ => rfl))

/-- The host's maximum over the MIDDLE axis of an `[n, a, b]` array, at `(k, c)`: the fold of `max`, from the initial
    value, over `p : Fin a` of the entries `(k, p, c)`. -/
theorem hostMidMax_apply {n a b : ℕ} {u : Shape} (x : (⟨3, ![n, a, b]⟩ : Shape).Idx → Ideal φ) (init : u.Idx → Ideal φ)
    (h' : (⟨3, ![n, a, b]⟩ : Shape).ReducesTo [1] ⟨2, ![n, b]⟩) (h : (⟨3, ![n, a, b]⟩ : Shape).Reduces [1] ⟨2, ![n, b]⟩)
    (hu : 0 < u.numel) (k : Fin n) (c : Fin b) :
    Host.reduce (FloatOps.maximumf (F := Ideal) (φ := φ)) x init h' hu (ix2 k c)
      = (Finset.univ : Finset (Fin a)).fold max (init (Shape.Idx.first hu)) (fun p => x (ix3 k p c)) := by
  refine (Host.reduce_eq_fold_single (FloatOps.maximumf (F := Ideal) (φ := φ)) x init h' h hu (ix2 k c)).trans ?_
  show (Finset.univ : Finset (Fin a)).fold max (init (Shape.Idx.first hu)) (fun p => x (h.lift (ix2 k c) p)) = _
  refine congrArg (fun f => (Finset.univ : Finset (Fin a)).fold max (init (Shape.Idx.first hu)) f) (funext fun p => ?_)
  exact congrArg x (funext fun ax => Fin.ext (by match ax with | ⟨0, _⟩ => rfl | ⟨1, _⟩ => rfl | ⟨2, _⟩ => rfl))

end Cert.RowOps
-- ==== Proof.KernelRow.lean ====
/-
  What the kernel's body computes from the blocks it loads, read at an index written by its coordinates.

  At a grid point the body holds a block of 512 queries, the 2048 keys and the 2048 values of one batch and head, and
  the 512 × 2048 block of the mask widened to words. It forms the 512 × 2048 scores (the queries times the keys' rows,
  scaled, the fill where the mask word is not zero), takes each row's maximum and spreads it over the lanes, exponentiates
  the differences, sums each row and spreads the sum, and divides: row p of the result is the weights of the attention
  row whose query is row p of the query block, whose keys are the key block's rows, and whose mask bit of key k says
  whether the mask word at (p, k) is not zero. The second output is that matrix times the value block: row p is that
  attention row's context. A change of float format is the identity on the extended reals.
-/
import proofs.«176946_j22909355557453_2_alg».proof.Proof.Gen.KernelIdeal.Skeleton
import proofs.«176946_j22909355557453_2_alg».proof.Proof.Attention
import proofs.«176946_j22909355557453_2_alg».proof.Proof.LibRowsByRows
import proofs.«176946_j22909355557453_2_alg».proof.Proof.LibPlainMatmul
import proofs.«176946_j22909355557453_2_alg».proof.Proof.LibRowOps

noncomputable section

namespace Cert.KernelIdeal.RowValue

open Cert.KernelIdeal Cert.KernelIdeal.Gen
open Idealize.ShloMosaic Idealize.ShloMosaic.ValueIdx Cert.Attention

/-! ## The rows a block holds -/

/-- Row `p` of a block `[1, 1, a, n]`. -/
def blockRow {α : Type} {a n : ℕ} (X : (⟨4, ![1, 1, a, n]⟩ : Shape).Idx → α) (p : Fin a) : Fin n → α :=
  fun d => X (ix4 (0 : Fin 1) (0 : Fin 1) p d)

/-- A block `[1, 1, a, n]` as a matrix, row by row. -/
def blockMat {α : Type} {a n : ℕ} (X : (⟨4, ![1, 1, a, n]⟩ : Shape).Idx → α) : Fin a → Fin n → α :=
  fun k d => X (ix4 (0 : Fin 1) (0 : Fin 1) k d)

/-- Row `p` of the mask block as bits: whether each word is not zero. -/
def maskRow {a n : ℕ} (X : (⟨4, ![1, 1, a, n]⟩ : Shape).Idx → BitVec 32) (p : Fin a) : Fin n → BitVec 1 :=
  fun k => IntOp.cmpi .ne (X (ix4 (0 : Fin 1) (0 : Fin 1) p k)) 0#32

/-! ## The body's stages -/

/-- The masked, scaled scores of the block. -/
def scores (P0 : Vec Ideal S1x1x512x64 .f32) (P1 : Vec Ideal S1x1x2048x64 .f32) (P3 : Vec Ideal S1x1x512x2048 .i32) :
    FVec Ideal S512x2048 .f32 :=
  select (cmpi .ne (shapeCast S512x2048 P3 shapeCasts_S1x1x512x2048_S512x2048) (constantI S512x2048 32 0#32))
    (broadcast S512x2048 (Scalar.ofBits (F := Ideal) .f32 0xCE6E6B28#32))
    (mulf (matmul dot_S512x64_S2048x64_S512x2048_1_1_0_0_n_n none
        (truncf .bf16 (shapeCast S512x64 P0 shapeCasts_S1x1x512x64_S512x64) bitsLt_bf16_f32)
        (truncf .bf16 (shapeCast S2048x64 P1 shapeCasts_S1x1x2048x64_S2048x64) bitsLt_bf16_f32)
        (constant S512x2048 .f32 0x00000000#32))
      (broadcast S512x2048 (Scalar.ofBits (F := Ideal) .f32 0x3E000000#32)))

/-- Each row's maximum. -/
def rowMaxes (S : FVec Ideal S512x2048 .f32) : FVec Ideal S512 .f32 :=
  multiReduction .maximumf [1] S512 S 0xFF800000#32 reduces_S512x2048_S512 (.inl rfl) rfl

/-- The exponentials of the scores less their row's maximum. -/
def expRows (S : FVec Ideal S512x2048 .f32) : FVec Ideal S512x2048 .f32 :=
  exp (subf S (broadcastTo S512x2048 (shapeCast S512x1 (rowMaxes S) shapeCasts_S512_S512x1) broadcasts_S512x1_S512x2048))

/-- Each row's sum. -/
def rowSums (E : FVec Ideal S512x2048 .f32) : FVec Ideal S512 .f32 :=
  multiReduction .add [1] S512 E 0x00000000#32 reduces_S512x2048_S512 (.inl rfl) rfl

/-- The rows normalised. -/
def softmaxRows (S : FVec Ideal S512x2048 .f32) : FVec Ideal S512x2048 .f32 :=
  divf (expRows S)
    (broadcastTo S512x2048 (shapeCast S512x1 (rowSums (expRows S)) shapeCasts_S512_S512x1) broadcasts_S512x1_S512x2048)

/-- The body's weights are these stages composed. -/
theorem pay2_eq (P0 : Vec Ideal S1x1x512x64 .f32) (P1 : Vec Ideal S1x1x2048x64 .f32) (P3 : Vec Ideal S1x1x512x2048 .i32) :
    k0_pay2 P0 P1 P3 = softmaxRows (scores P0 P1 P3) := rfl

/-! ## The stages at an index -/

/-- Entry (p, c) of the scores is the score of key c in row p. -/
theorem scores_apply (P0 : Vec Ideal S1x1x512x64 .f32) (P1 : Vec Ideal S1x1x2048x64 .f32)
    (P3 : Vec Ideal S1x1x512x2048 .i32) (p : Fin 512) (c : Fin 2048) :
    scores P0 P1 P3 (ix2 p c) = score (blockRow P0 p) (blockMat P1) (maskRow P3 p) c := by
  have hm : shapeCast S512x2048 P3 shapeCasts_S1x1x512x2048_S512x2048 (ix2 p c)
      = P3 (ix4 (0 : Fin 1) (0 : Fin 1) p c) :=
    Cert.RowsByRows.shapeCast_11ab_ab_apply P3 _ p c
  have hmm : matmul (F := Ideal) dot_S512x64_S2048x64_S512x2048_1_1_0_0_n_n none
        (truncf .bf16 (shapeCast S512x64 P0 shapeCasts_S1x1x512x64_S512x64) bitsLt_bf16_f32)
        (truncf .bf16 (shapeCast S2048x64 P1 shapeCasts_S1x1x2048x64_S2048x64) bitsLt_bf16_f32)
        (constant S512x2048 .f32 0x00000000#32) (ix2 p c)
      = ∑ d : Fin 64, P0 (ix4 (0 : Fin 1) (0 : Fin 1) p d) * P1 (ix4 (0 : Fin 1) (0 : Fin 1) c d) := by
    refine (Cert.RowsByRows.matmul_rowsByRows_apply dot_S512x64_S2048x64_S512x2048_1_1_0_0_n_n_wf none _ _ p c).trans ?_
    refine Finset.sum_congr rfl fun d _ => ?_
    exact congrArg₂ (· * ·) (Cert.RowsByRows.shapeCast_11ab_ab_apply P0 _ p d)
      (Cert.RowsByRows.shapeCast_11ab_ab_apply P1 _ c d)
  exact congrArg₂ (fun (a : BitVec 32) (b : EReal) => Scalar.select (IntOp.cmpi .ne a 0#32)
    (Ideal.ofBits .f32 0xCE6E6B28#32) (b * Ideal.ofBits .f32 0x3E000000#32)) hm hmm

/-- The spread maximum at (p, c) is the fold of `max` over row p from −∞. -/
theorem spreadMax_apply (S : FVec Ideal S512x2048 .f32) (p : Fin 512) (c : Fin 2048) :
    broadcastTo S512x2048 (shapeCast S512x1 (rowMaxes S) shapeCasts_S512_S512x1) broadcasts_S512x1_S512x2048 (ix2 p c)
      = (Finset.univ : Finset (Fin 2048)).fold max (Ideal.ofBits .f32 0xFF800000#32) (fun k => S (ix2 p k)) :=
  (Cert.RowOps.spreadColumn_apply (rowMaxes S) _ _ p c).trans
    (Cert.RowOps.laneMax_apply S 0xFF800000#32 reduces_S512x2048_S512 (.inl rfl) rfl p)

/-- Entry (p, c) of the exponentials. -/
theorem expRows_apply (S : FVec Ideal S512x2048 .f32) (p : Fin 512) (c : Fin 2048) :
    expRows S (ix2 p c) = Ideal.exp (S (ix2 p c)
      - (Finset.univ : Finset (Fin 2048)).fold max (Ideal.ofBits .f32 0xFF800000#32) (fun k => S (ix2 p k))) :=
  congrArg (fun z => Ideal.exp (S (ix2 p c) - z)) (spreadMax_apply S p c)

/-- The spread sum at (p, c) is the sum of row p. -/
theorem spreadSum_apply (E : FVec Ideal S512x2048 .f32) (p : Fin 512) (c : Fin 2048) :
    broadcastTo S512x2048 (shapeCast S512x1 (rowSums E) shapeCasts_S512_S512x1) broadcasts_S512x1_S512x2048 (ix2 p c)
      = ∑ k : Fin 2048, E (ix2 p k) :=
  (Cert.RowOps.spreadColumn_apply (rowSums E) _ _ p c).trans
    (Cert.RowOps.laneSum_apply E 0x00000000#32 reduces_S512x2048_S512 (.inl rfl) rfl p)

/-- Entry (p, c) of the normalised rows, from the scores' row p. -/
theorem softmaxRows_apply (S : FVec Ideal S512x2048 .f32) (p : Fin 512) (c : Fin 2048) :
    softmaxRows S (ix2 p c)
      = Ideal.div (Ideal.exp (S (ix2 p c)
          - (Finset.univ : Finset (Fin 2048)).fold max (Ideal.ofBits .f32 0xFF800000#32) (fun k => S (ix2 p k))))
        (∑ j : Fin 2048, Ideal.exp (S (ix2 p j)
          - (Finset.univ : Finset (Fin 2048)).fold max (Ideal.ofBits .f32 0xFF800000#32) (fun k => S (ix2 p k)))) :=
  congrArg₂ Ideal.div (expRows_apply S p c)
    ((spreadSum_apply (expRows S) p c).trans (Finset.sum_congr rfl fun j _ => expRows_apply S p j))

/-! ## The two payloads -/

/-- Entry (p, c) of the body's weights is the weight of key c in the attention row of the block's row p. -/
theorem weights_apply (P0 : Vec Ideal S1x1x512x64 .f32) (P1 : Vec Ideal S1x1x2048x64 .f32)
    (P3 : Vec Ideal S1x1x512x2048 .i32) (p : Fin 512) (c : Fin 2048) :
    k0_pay2 P0 P1 P3 (ix2 p c) = weight (blockRow P0 p) (blockMat P1) (maskRow P3 p) c := by
  rw [pay2_eq]
  refine (softmaxRows_apply (scores P0 P1 P3) p c).trans ?_
  simp only [scores_apply]
  rfl

/-- The stored weights block at (u, v, p, c). -/
theorem storedWeights_apply (P0 : Vec Ideal S1x1x512x64 .f32) (P1 : Vec Ideal S1x1x2048x64 .f32)
    (P3 : Vec Ideal S1x1x512x2048 .i32) (u v : Fin 1) (p : Fin 512) (c : Fin 2048) :
    k0_pay3 P0 P1 P3 (ix4 u v p c) = weight (blockRow P0 p) (blockMat P1) (maskRow P3 p) c :=
  (Cert.RowsByRows.shapeCast_ab_11ab_apply (k0_pay2 P0 P1 P3) shapeCasts_S512x2048_S1x1x512x2048 u v p c).trans
    (weights_apply P0 P1 P3 p c)

/-- The stored context block at (u, v, p, d): the weights' row p against column d of the values. -/
theorem storedContext_apply (P0 : Vec Ideal S1x1x512x64 .f32) (P1 P2 : Vec Ideal S1x1x2048x64 .f32)
    (P3 : Vec Ideal S1x1x512x2048 .i32) (u v : Fin 1) (p : Fin 512) (d : Fin 64) :
    k0_pay1 (k0_pay4 P0 P1 P3) (k0_pay5 P2) (ix4 u v p d)
      = context (blockRow P0 p) (blockMat P1) (maskRow P3 p) (blockMat P2) d := by
  refine (Cert.RowsByRows.shapeCast_ab_11ab_apply
    (matmul (F := Ideal) dot_S512x2048_S2048x64_S512x64_1_0_0_1_n_n none (k0_pay4 P0 P1 P3) (k0_pay5 P2)
      (constant S512x64 .f32 0x00000000#32)) shapeCasts_S512x64_S1x1x512x64 u v p d).trans ?_
  refine (Cert.PlainMatmul.matmul_zero_apply dot_S512x2048_S2048x64_S512x64_1_0_0_1_n_n_wf none
    (k0_pay4 P0 P1 P3) (k0_pay5 P2) p d).trans ?_
  refine Finset.sum_congr rfl fun k _ => ?_
  exact congrArg₂ (· * ·) (weights_apply P0 P1 P3 p k) (Cert.RowsByRows.shapeCast_11ab_ab_apply P2 _ k d)

end Cert.KernelIdeal.RowValue

end
-- ==== Proof.KernelArray.lean ====
/-
  From the kernel's blocks to its two result arrays.

  The grid has a point for every batch b, head h and block qi of 512 queries. At that point the query, mask, context and
  weights windows hold block (b, h, qi, 0) of their arrays, and the key and value windows block (b, h, 0, 0): all 2048
  rows of batch b and head h. So row p of the query block is row qi · 512 + p of Q(b, h), the key and value blocks are
  K(b, h) and V(b, h) whole, and row p of the mask block is row qi · 512 + p of the mask's words. What the point writes
  back is therefore the block of the layer's weights (and of its context) at (b, h, qi): the body's row p is the
  attention row of query qi · 512 + p. The blocks of the 128 points tile each result array, so after the run each array
  is the layer's function of the arrays the region found. The mask reaches the kernel widened from bits to words by the
  host, and a widened bit is not zero exactly when the bit is set.
-/
import proofs.«176946_j22909355557453_2_alg».proof.Proof.Gen.KernelIdeal.Value
import proofs.«176946_j22909355557453_2_alg».proof.Proof.KernelRow
import Idealize.ShloMosaic.Lib.Pipeline.Value
import Idealize.ShloMosaic.Lib.StableHlo.Run
import Idealize.ShloMosaic.Lib.Tactic

noncomputable section

namespace Cert.KernelIdeal.ArrayValue

open Cert.KernelIdeal Cert.KernelIdeal.Gen Cert.KernelIdeal.RowValue
open Idealize.ShloMosaic Idealize.ShloMosaic.TcCoe Idealize.SL.Sem Idealize.ShloMosaic.ValueIdx Cert.Attention
open Idealize.ShloMosaic.Pipeline (Dat)

variable (m : (ℓ : Loc nD τ sig) → Buf (Elt Ideal) ℓ) (ρ : Dev nD → PrngReg)

theorem hz : (![0, 0, 0, 0] : Fin 4 → Nat) = fun _ => 0 := funext fun a => by fin_cases a <;> rfl

/-! ## The mask as the kernel sees it -/

/-- The bits of an array of words: whether each word is not zero. -/
def maskBits (W : SM.Idx → BitVec 32) : SM.Idx → BitVec 1 := fun j => IntOp.cmpi .ne (W j) 0#32

/-- A bit widened to a word is not zero exactly when the bit is set. -/
theorem maskBits_extui (M : SM.Idx → BitVec 1) (h : 1 < 32) : maskBits (extui 32 M h) = M := funext fun j => by
  show IntOp.cmpi .ne ((M j).setWidth 32) 0#32 = M j
  generalize M j = b
  revert b
  decide

/-! ## One point's blocks, over variables -/

/-- If the loaded blocks are rows `o + p` of the queries and of the mask's words of batch b and head h, and all the keys of
    batch b and head h, the stored weights block at y is the layer's weights at (b, h, o + y₂, y₃). -/
theorem weightsBlock_apply
    (x0 : Vec Ideal S1x1x512x64 .f32) (x1 : Vec Ideal S1x1x2048x64 .f32) (x3 : Vec Ideal S1x1x512x2048 .i32)
    (Q K : SQ.Idx → EReal) (W : SM.Idx → BitVec 32) (b : Fin 2) (h : Fin 16) (o : ℕ)
    (hq : ∀ (p : Fin 512) (d : Fin 64) (q : Fin 2048), q.val = o + p.val →
      x0 (ix4 (0 : Fin 1) (0 : Fin 1) p d) = Q (ix4 b h q d))
    (hk : ∀ (k : Fin 2048) (d : Fin 64), x1 (ix4 (0 : Fin 1) (0 : Fin 1) k d) = K (ix4 b h k d))
    (hw : ∀ (p : Fin 512) (k : Fin 2048) (q : Fin 2048), q.val = o + p.val →
      x3 (ix4 (0 : Fin 1) (0 : Fin 1) p k) = W (ix4 b h q k))
    (y : S1x1x512x2048.Idx) (i : SM.Idx) (hi0 : (i 0).val = b.val) (hi1 : (i 1).val = h.val)
    (hi2 : (i 2).val = o + (y 2).val) (hi3 : (i 3).val = (y 3).val) :
    k0_pay3 x0 x1 x3 y = weights Q K (maskBits W) i := by
  obtain ⟨u, v, p, k, rfl⟩ : ∃ (u v : Fin 1) (p : Fin 512) (k : Fin 2048), y = ix4 u v p k :=
    ⟨y 0, y 1, y 2, y 3, eq_ix4 y⟩
  obtain ⟨b', h', q, k', rfl⟩ : ∃ (b' : Fin 2) (h' : Fin 16) (q k' : Fin 2048), i = ix4 b' h' q k' :=
    ⟨i 0, i 1, i 2, i 3, eq_ix4 i⟩
  obtain rfl : b' = b := Fin.ext hi0
  obtain rfl : h' = h := Fin.ext hi1
  obtain rfl : k' = k := Fin.ext hi3
  have hq' : q.val = o + p.val := hi2
  have e0 : blockRow x0 p = rowOf Q b' h' q := funext fun d => hq p d q hq'
  have e1 : blockMat x1 = matOf K b' h' := funext fun j => funext fun d => hk j d
  have e3 : maskRow x3 p = rowOf (maskBits W) b' h' q :=
    funext fun j => congrArg (fun w => IntOp.cmpi .ne w 0#32) (hw p j q hq')
  rw [storedWeights_apply, Attention.weights_apply, e0, e1, e3]

/-- Likewise the stored context block at y is the layer's context at (b, h, o + y₂, y₃), the value block being all the
    values of batch b and head h. -/
theorem contextBlock_apply
    (x0 : Vec Ideal S1x1x512x64 .f32) (x1 x2 : Vec Ideal S1x1x2048x64 .f32) (x3 : Vec Ideal S1x1x512x2048 .i32)
    (Q K Vv : SQ.Idx → EReal) (W : SM.Idx → BitVec 32) (b : Fin 2) (h : Fin 16) (o : ℕ)
    (hq : ∀ (p : Fin 512) (d : Fin 64) (q : Fin 2048), q.val = o + p.val →
      x0 (ix4 (0 : Fin 1) (0 : Fin 1) p d) = Q (ix4 b h q d))
    (hk : ∀ (k : Fin 2048) (d : Fin 64), x1 (ix4 (0 : Fin 1) (0 : Fin 1) k d) = K (ix4 b h k d))
    (hv : ∀ (k : Fin 2048) (d : Fin 64), x2 (ix4 (0 : Fin 1) (0 : Fin 1) k d) = Vv (ix4 b h k d))
    (hw : ∀ (p : Fin 512) (k : Fin 2048) (q : Fin 2048), q.val = o + p.val →
      x3 (ix4 (0 : Fin 1) (0 : Fin 1) p k) = W (ix4 b h q k))
    (y : S1x1x512x64.Idx) (i : SQ.Idx) (hi0 : (i 0).val = b.val) (hi1 : (i 1).val = h.val)
    (hi2 : (i 2).val = o + (y 2).val) (hi3 : (i 3).val = (y 3).val) :
    k0_pay1 (k0_pay4 x0 x1 x3) (k0_pay5 x2) y = contexts Q K Vv (maskBits W) i := by
  obtain ⟨u, v, p, d, rfl⟩ : ∃ (u v : Fin 1) (p : Fin 512) (d : Fin 64), y = ix4 u v p d :=
    ⟨y 0, y 1, y 2, y 3, eq_ix4 y⟩
  obtain ⟨b', h', q, d', rfl⟩ : ∃ (b' : Fin 2) (h' : Fin 16) (q : Fin 2048) (d' : Fin 64), i = ix4 b' h' q d' :=
    ⟨i 0, i 1, i 2, i 3, eq_ix4 i⟩
  obtain rfl : b' = b := Fin.ext hi0
  obtain rfl : h' = h := Fin.ext hi1
  obtain rfl : d' = d := Fin.ext hi3
  have hq' : q.val = o + p.val := hi2
  have e0 : blockRow x0 p = rowOf Q b' h' q := funext fun j => hq p j q hq'
  have e1 : blockMat x1 = matOf K b' h' := funext fun j => funext fun e => hk j e
  have e2 : blockMat x2 = matOf Vv b' h' := funext fun j => funext fun e => hv j e
  have e3 : maskRow x3 p = rowOf (maskBits W) b' h' q :=
    funext fun j => congrArg (fun w => IntOp.cmpi .ne w 0#32) (hw p j q hq')
  rw [storedContext_apply, Attention.contexts_apply, e0, e1, e2, e3]

/-! ## Where the windows' blocks sit -/

/-- The printed index maps over the grid: the weights window's block index is (b, h, qi, 0) with b < 2, h < 16, qi < 4;
    the query, mask and context windows sit at the same block, the key and value windows at (b, h, 0, 0). -/
theorem idx_facts : ∀ t : Fin cfg0.N,
    (win0_5.index t (0 : Fin 4) < 2 ∧ win0_5.index t (1 : Fin 4) < 16 ∧ win0_5.index t (2 : Fin 4) < 4
      ∧ win0_5.index t (3 : Fin 4) = 0)
    ∧ (win0_0.index t (0 : Fin 4) = win0_5.index t (0 : Fin 4) ∧ win0_0.index t (1 : Fin 4) = win0_5.index t (1 : Fin 4)
      ∧ win0_0.index t (2 : Fin 4) = win0_5.index t (2 : Fin 4) ∧ win0_0.index t (3 : Fin 4) = 0)
    ∧ (win0_1.index t (0 : Fin 4) = win0_5.index t (0 : Fin 4) ∧ win0_1.index t (1 : Fin 4) = win0_5.index t (1 : Fin 4)
      ∧ win0_1.index t (2 : Fin 4) = 0 ∧ win0_1.index t (3 : Fin 4) = 0)
    ∧ (win0_2.index t (0 : Fin 4) = win0_5.index t (0 : Fin 4) ∧ win0_2.index t (1 : Fin 4) = win0_5.index t (1 : Fin 4)
      ∧ win0_2.index t (2 : Fin 4) = 0 ∧ win0_2.index t (3 : Fin 4) = 0)
    ∧ (win0_3.index t (0 : Fin 4) = win0_5.index t (0 : Fin 4) ∧ win0_3.index t (1 : Fin 4) = win0_5.index t (1 : Fin 4)
      ∧ win0_3.index t (2 : Fin 4) = win0_5.index t (2 : Fin 4) ∧ win0_3.index t (3 : Fin 4) = 0)
    ∧ (win0_4.index t (0 : Fin 4) = win0_5.index t (0 : Fin 4) ∧ win0_4.index t (1 : Fin 4) = win0_5.index t (1 : Fin 4)
      ∧ win0_4.index t (2 : Fin 4) = win0_5.index t (2 : Fin 4) ∧ win0_4.index t (3 : Fin 4) = 0) :=
  (by decide +kernel : ∀ t : Fin grid0.N, _)

/-- Every (b, h, qi) is some point's block. -/
theorem idx_onto : ∀ (b : Fin 2) (h : Fin 16) (qi : Fin 4), ∃ t : Fin cfg0.N,
    win0_5.index t = ![b.val, h.val, qi.val, 0] :=
  (by decide +kernel : ∀ (b : Fin 2) (h : Fin 16) (qi : Fin 4), ∃ t : Fin grid0.N,
    win0_5.index t = ![b.val, h.val, qi.val, 0])

/-! ## The input windows' blocks as rows of the arrays -/

/-- Row p of the query block at point t is row qi · 512 + p of Q(b, h). -/
theorem queryBlock_apply (c : Dev nD) (t : Fin cfg0.N) (p : Fin 512) (d : Fin 64) (b : Fin 2) (h : Fin 16) (q : Fin 2048)
    (hb : b.val = win0_5.index t (0 : Fin 4)) (hh : h.val = win0_5.index t (1 : Fin 4))
    (hq : q.val = win0_5.index t (2 : Fin 4) * 512 + p.val) :
    (iblk m c 0 t : Vec Ideal S1x1x512x64 .f32) (ix4 (0 : Fin 1) (0 : Fin 1) p d)
      = (V m c main_arg0 : S2x16x2048x64.Idx → EReal) (ix4 b h q d) := by
  obtain ⟨-, ⟨e0, e1, e2, e3⟩, -⟩ := idx_facts t
  unfold iblk
  rw [View.read_apply]
  show V m c main_arg0 _ = V m c main_arg0 _
  congr 1
  funext a
  apply Fin.ext
  match a with
  | ⟨0, _⟩ => show win0_0.index t (0 : Fin 4) * 1 + 1 * (0 : ℕ) = b.val; omega
  | ⟨1, _⟩ => show win0_0.index t (1 : Fin 4) * 1 + 1 * (0 : ℕ) = h.val; omega
  | ⟨2, _⟩ => show win0_0.index t (2 : Fin 4) * 512 + 1 * p.val = q.val; omega
  | ⟨3, _⟩ => show win0_0.index t (3 : Fin 4) * 64 + 1 * d.val = d.val; omega

/-- The key block at point t is K(b, h). -/
theorem keyBlock_apply (c : Dev nD) (t : Fin cfg0.N) (k : Fin 2048) (d : Fin 64) (b : Fin 2) (h : Fin 16)
    (hb : b.val = win0_5.index t (0 : Fin 4)) (hh : h.val = win0_5.index t (1 : Fin 4)) :
    (iblk m c 1 t : Vec Ideal S1x1x2048x64 .f32) (ix4 (0 : Fin 1) (0 : Fin 1) k d)
      = (V m c main_arg1 : S2x16x2048x64.Idx → EReal) (ix4 b h k d) := by
  obtain ⟨-, -, ⟨e0, e1, e2, e3⟩, -⟩ := idx_facts t
  unfold iblk
  rw [View.read_apply]
  show V m c main_arg1 _ = V m c main_arg1 _
  congr 1
  funext a
  apply Fin.ext
  match a with
  | ⟨0, _⟩ => show win0_1.index t (0 : Fin 4) * 1 + 1 * (0 : ℕ) = b.val; omega
  | ⟨1, _⟩ => show win0_1.index t (1 : Fin 4) * 1 + 1 * (0 : ℕ) = h.val; omega
  | ⟨2, _⟩ => show win0_1.index t (2 : Fin 4) * 2048 + 1 * k.val = k.val; omega
  | ⟨3, _⟩ => show win0_1.index t (3 : Fin 4) * 64 + 1 * d.val = d.val; omega

/-- The value block at point t is V(b, h). -/
theorem valueBlock_apply (c : Dev nD) (t : Fin cfg0.N) (k : Fin 2048) (d : Fin 64) (b : Fin 2) (h : Fin 16)
    (hb : b.val = win0_5.index t (0 : Fin 4)) (hh : h.val = win0_5.index t (1 : Fin 4)) :
    (iblk m c 2 t : Vec Ideal S1x1x2048x64 .f32) (ix4 (0 : Fin 1) (0 : Fin 1) k d)
      = (V m c main_arg2 : S2x16x2048x64.Idx → EReal) (ix4 b h k d) := by
  obtain ⟨-, -, -, ⟨e0, e1, e2, e3⟩, -⟩ := idx_facts t
  unfold iblk
  rw [View.read_apply]
  show V m c main_arg2 _ = V m c main_arg2 _
  congr 1
  funext a
  apply Fin.ext
  match a with
  | ⟨0, _⟩ => show win0_2.index t (0 : Fin 4) * 1 + 1 * (0 : ℕ) = b.val; omega
  | ⟨1, _⟩ => show win0_2.index t (1 : Fin 4) * 1 + 1 * (0 : ℕ) = h.val; omega
  | ⟨2, _⟩ => show win0_2.index t (2 : Fin 4) * 2048 + 1 * k.val = k.val; omega
  | ⟨3, _⟩ => show win0_2.index t (3 : Fin 4) * 64 + 1 * d.val = d.val; omega

/-- Row p of the mask block at point t is row qi · 512 + p of the mask's words at (b, h). -/
theorem maskBlock_apply (c : Dev nD) (t : Fin cfg0.N) (p : Fin 512) (k : Fin 2048) (b : Fin 2) (h : Fin 16) (q : Fin 2048)
    (hb : b.val = win0_5.index t (0 : Fin 4)) (hh : h.val = win0_5.index t (1 : Fin 4))
    (hq : q.val = win0_5.index t (2 : Fin 4) * 512 + p.val) :
    (iblk m c 3 t : Vec Ideal S1x1x512x2048 .i32) (ix4 (0 : Fin 1) (0 : Fin 1) p k)
      = (V m c main_v0 : S2x16x2048x2048.Idx → BitVec 32) (ix4 b h q k) := by
  obtain ⟨-, -, -, -, ⟨e0, e1, e2, e3⟩, -⟩ := idx_facts t
  unfold iblk
  rw [View.read_apply]
  show V m c main_v0 _ = V m c main_v0 _
  congr 1
  funext a
  apply Fin.ext
  match a with
  | ⟨0, _⟩ => show win0_3.index t (0 : Fin 4) * 1 + 1 * (0 : ℕ) = b.val; omega
  | ⟨1, _⟩ => show win0_3.index t (1 : Fin 4) * 1 + 1 * (0 : ℕ) = h.val; omega
  | ⟨2, _⟩ => show win0_3.index t (2 : Fin 4) * 512 + 1 * p.val = q.val; omega
  | ⟨3, _⟩ => show win0_3.index t (3 : Fin 4) * 2048 + 1 * k.val = k.val; omega

/-! ## What each point writes back -/

/-- The layer's weights of the arrays the region finds. -/
abbrev arrWeights (c : Dev nD) : S2x16x2048x2048.Idx → EReal :=
  weights (V m c main_arg0) (V m c main_arg1) (maskBits (V m c main_v0))

/-- The layer's context of the arrays the region finds. -/
abbrev arrContext (c : Dev nD) : S2x16x2048x64.Idx → EReal :=
  contexts (V m c main_arg0) (V m c main_arg1) (V m c main_arg2) (maskBits (V m c main_v0))

/-- Point t writes back block t of the layer's weights. -/
theorem flushedWeights_eq (c : Dev nD) (t : Fin cfg0.N) :
    (dats m 0 c).flushed 5 t = ((cfg0.win 5).blk t).view.read (Elt Ideal) (arrWeights m c) := by
  obtain ⟨⟨r0, r1, r2, r3⟩, -⟩ := idx_facts t
  rw [Value.flushed5]
  unfold out0_5
  rw [View.canon_unit_zero hz]
  simp only [View.ld_unit_zero (S := S1x1x512x64) hz, View.ld_unit_zero (S := S1x1x2048x64) hz,
    View.ld_unit_zero (S := S1x1x512x2048) hz]
  funext y
  show k0_pay3 (iblk m c 0 t) (iblk m c 1 t) (iblk m c 3 t) y = arrWeights m c (((cfg0.win 5).blk t).view.emb y)
  have hy0 : (y 0).val < 1 := (y 0).isLt
  have hy1 : (y 1).val < 1 := (y 1).isLt
  refine weightsBlock_apply (iblk m c 0 t) (iblk m c 1 t) (iblk m c 3 t) (V m c main_arg0) (V m c main_arg1)
    (V m c main_v0) ⟨win0_5.index t (0 : Fin 4), r0⟩ ⟨win0_5.index t (1 : Fin 4), r1⟩ (win0_5.index t (2 : Fin 4) * 512)
    (fun p d q hq => queryBlock_apply m c t p d _ _ q rfl rfl hq)
    (fun k d => keyBlock_apply m c t k d _ _ rfl rfl)
    (fun p k q hq => maskBlock_apply m c t p k _ _ q rfl rfl hq)
    y _ ?_ ?_ ?_ ?_
  · show win0_5.index t (0 : Fin 4) * 1 + 1 * (y 0).val = win0_5.index t (0 : Fin 4); omega
  · show win0_5.index t (1 : Fin 4) * 1 + 1 * (y 1).val = win0_5.index t (1 : Fin 4); omega
  · show win0_5.index t (2 : Fin 4) * 512 + 1 * (y 2).val = win0_5.index t (2 : Fin 4) * 512 + (y 2).val; omega
  · show win0_5.index t (3 : Fin 4) * 2048 + 1 * (y 3).val = (y 3).val; omega

/-- Point t writes back block t of the layer's context. -/
theorem flushedContext_eq (c : Dev nD) (t : Fin cfg0.N) :
    (dats m 0 c).flushed 4 t = ((cfg0.win 4).blk t).view.read (Elt Ideal) (arrContext m c) := by
  obtain ⟨⟨r0, r1, r2, r3⟩, -, -, -, -, ⟨e0, e1, e2, e3⟩⟩ := idx_facts t
  rw [Value.flushed4]
  unfold out0_4
  rw [View.canon_unit_zero hz]
  simp only [View.ld_unit_zero (S := S1x1x512x64) hz, View.ld_unit_zero (S := S1x1x2048x64) hz,
    View.ld_unit_zero (S := S1x1x512x2048) hz]
  funext y
  show k0_pay1 (k0_pay4 (iblk m c 0 t) (iblk m c 1 t) (iblk m c 3 t)) (k0_pay5 (iblk m c 2 t)) y
    = arrContext m c (((cfg0.win 4).blk t).view.emb y)
  have hy0 : (y 0).val < 1 := (y 0).isLt
  have hy1 : (y 1).val < 1 := (y 1).isLt
  refine contextBlock_apply (iblk m c 0 t) (iblk m c 1 t) (iblk m c 2 t) (iblk m c 3 t) (V m c main_arg0)
    (V m c main_arg1) (V m c main_arg2) (V m c main_v0) ⟨win0_5.index t (0 : Fin 4), r0⟩ ⟨win0_5.index t (1 : Fin 4), r1⟩
    (win0_5.index t (2 : Fin 4) * 512)
    (fun p d q hq => queryBlock_apply m c t p d _ _ q rfl rfl hq)
    (fun k d => keyBlock_apply m c t k d _ _ rfl rfl)
    (fun k d => valueBlock_apply m c t k d _ _ rfl rfl)
    (fun p k q hq => maskBlock_apply m c t p k _ _ q rfl rfl hq)
    y _ ?_ ?_ ?_ ?_
  · show win0_4.index t (0 : Fin 4) * 1 + 1 * (y 0).val = win0_5.index t (0 : Fin 4); omega
  · show win0_4.index t (1 : Fin 4) * 1 + 1 * (y 1).val = win0_5.index t (1 : Fin 4); omega
  · show win0_4.index t (2 : Fin 4) * 512 + 1 * (y 2).val = win0_5.index t (2 : Fin 4) * 512 + (y 2).val; omega
  · show win0_4.index t (3 : Fin 4) * 64 + 1 * (y 3).val = (y 3).val; omega

/-! ## The blocks tile the arrays -/

/-- An index is in point t's weights block iff each coordinate is in the block's range on its axis. -/
theorem mem_weightsBlock (t : Fin cfg0.N) (i : S2x16x2048x2048.Idx) :
    i ∈ ((cfg0.win 5).blk t).view.set ↔ ∀ a : Fin 4, win0_5.index t a * S1x1x512x2048.size a ≤ (i a).val
      ∧ (i a).val < win0_5.index t a * S1x1x512x2048.size a + S1x1x512x2048.size a := by
  show i ∈ ((View.whole main_v1_1).slice (win0_5.rect t)).set ↔ _
  rw [View.set_slice_whole, Rect.mem_set_unit]
  exact Iff.rfl

/-- An index is in point t's context block iff each coordinate is in the block's range on its axis. -/
theorem mem_contextBlock (t : Fin cfg0.N) (i : S2x16x2048x64.Idx) :
    i ∈ ((cfg0.win 4).blk t).view.set ↔ ∀ a : Fin 4, win0_4.index t a * S1x1x512x64.size a ≤ (i a).val
      ∧ (i a).val < win0_4.index t a * S1x1x512x64.size a + S1x1x512x64.size a := by
  show i ∈ ((View.whole main_v1_0).slice (win0_4.rect t)).set ↔ _
  rw [View.set_slice_whole, Rect.mem_set_unit]
  exact Iff.rfl

/-- Every index of the weights array is in the block of the point (i₀, i₁, i₂ / 512). -/
theorem weights_covered (i : S2x16x2048x2048.Idx) :
    ∃ t : Fin cfg0.N, (cfg0.win 5).flush t = true ∧ i ∈ ((cfg0.win 5).blk t).view.set := by
  have hi0 : (i 0).val < 2 := (i 0).isLt
  have hi1 : (i 1).val < 16 := (i 1).isLt
  have hi2 : (i 2).val < 2048 := (i 2).isLt
  have hi3 : (i 3).val < 2048 := (i 3).isLt
  obtain ⟨t, ht⟩ := idx_onto ⟨(i 0).val, hi0⟩ ⟨(i 1).val, hi1⟩ ⟨(i 2).val / 512, by omega⟩
  have q0 : win0_5.index t (0 : Fin 4) = (i 0).val := congrFun ht 0
  have q1 : win0_5.index t (1 : Fin 4) = (i 1).val := congrFun ht 1
  have q2 : win0_5.index t (2 : Fin 4) = (i 2).val / 512 := congrFun ht 2
  have q3 : win0_5.index t (3 : Fin 4) = 0 := congrFun ht 3
  refine ⟨t, flush0_5 t, ?_⟩
  rw [mem_weightsBlock]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 1 ≤ (i 1).val ∧ (i 1).val < win0_5.index t (1 : Fin 4) * 1 + 1; omega
  | ⟨2, _⟩ => show win0_5.index t (2 : Fin 4) * 512 ≤ (i 2).val ∧ (i 2).val < win0_5.index t (2 : Fin 4) * 512 + 512; omega
  | ⟨3, _⟩ => show win0_5.index t (3 : Fin 4) * 2048 ≤ (i 3).val ∧ (i 3).val < win0_5.index t (3 : Fin 4) * 2048 + 2048; omega

/-- Every index of the context array is in the block of the point (i₀, i₁, i₂ / 512). -/
theorem context_covered (i : S2x16x2048x64.Idx) :
    ∃ t : Fin cfg0.N, (cfg0.win 4).flush t = true ∧ i ∈ ((cfg0.win 4).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ := idx_onto ⟨(i 0).val, hi0⟩ ⟨(i 1).val, hi1⟩ ⟨(i 2).val / 512, by omega⟩
  obtain ⟨-, -, -, -, -, ⟨e0, e1, e2, e3⟩⟩ := idx_facts t
  have q0 : win0_5.index t (0 : Fin 4) = (i 0).val := congrFun ht 0
  have q1 : win0_5.index t (1 : Fin 4) = (i 1).val := congrFun ht 1
  have q2 : win0_5.index t (2 : Fin 4) = (i 2).val / 512 := congrFun ht 2
  refine ⟨t, flush0_4 t, ?_⟩
  rw [mem_contextBlock]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 512 ≤ (i 2).val ∧ (i 2).val < win0_4.index t (2 : Fin 4) * 512 + 512; omega
  | ⟨3, _⟩ => show win0_4.index t (3 : Fin 4) * 64 ≤ (i 3).val ∧ (i 3).val < win0_4.index t (3 : Fin 4) * 64 + 64; omega

/-! ## The arrays after the run -/

/-- The host widens the mask's bits to words before the region. -/
theorem V_maskWords (c : Dev nD) :
    (V m c main_v0 : S2x16x2048x2048.Idx → BitVec 32) = extui 32 (m ((c : Thread nD τ).loc main_arg3)) natLt_1_32 := by
  dsimp only [Gen.V, Gen.hostOps0]
  after_results

/-- The weights array after the run is the layer's weights of the argument arrays. -/
theorem finalWeights (c : Dev nD) : (dats m 0 c).arrAt 5 cfg0.N
    = weights (m ((c : Thread nD τ).loc main_arg0)) (m ((c : Thread nD τ).loc main_arg1))
        (m ((c : Thread nD τ).loc main_arg3)) := by
  rw [(dats m 0 c).arrAt_eq_of_cover 5 (arrWeights m c) (fun t _ => flushedWeights_eq m c t) weights_covered]
  show weights (V m c main_arg0) (V m c main_arg1) (maskBits (V m c main_v0)) = _
  rw [V_main_arg0, V_main_arg1, V_maskWords, maskBits_extui]

/-- The context array after the run is the layer's context of the argument arrays. -/
theorem finalContext (c : Dev nD) : (dats m 0 c).arrAt 4 cfg0.N
    = contexts (m ((c : Thread nD τ).loc main_arg0)) (m ((c : Thread nD τ).loc main_arg1))
        (m ((c : Thread nD τ).loc main_arg2)) (m ((c : Thread nD τ).loc main_arg3)) := by
  rw [(dats m 0 c).arrAt_eq_of_cover 4 (arrContext m c) (fun t _ => flushedContext_eq m c t) context_covered]
  show contexts (V m c main_arg0) (V m c main_arg1) (V m c main_arg2) (maskBits (V m c main_v0)) = _
  rw [V_main_arg0, V_main_arg1, V_main_arg2, V_maskWords, maskBits_extui]

/-- The kernel's run: the two result arrays at the layer's context and weights of the arguments, the arguments
    unchanged. -/
theorem run : θ_run defs (onTc (τ := τ) (main (F := Ideal))) ⟨m, fun _ => 0, ρ⟩ fun r => ∀ c : Dev nD,
      r.2.mem ((c : Thread nD τ).loc main_v1_0)
        = contexts (m ((c : Thread nD τ).loc main_arg0)) (m ((c : Thread nD τ).loc main_arg1))
            (m ((c : Thread nD τ).loc main_arg2)) (m ((c : Thread nD τ).loc main_arg3))
      ∧ r.2.mem ((c : Thread nD τ).loc main_v1_1)
        = weights (m ((c : Thread nD τ).loc main_arg0)) (m ((c : Thread nD τ).loc main_arg1))
            (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (finalContext m c), (h c).2.1.trans (finalWeights m c), (h c).2.2⟩)
    (Value.run_blocks m ρ)

end Cert.KernelIdeal.ArrayValue

end
-- ==== Proof.LibLastAxisMax4.lean ====
/-
  The host's maximum over the LAST axis of an `[m, n, a, b]` array, read at an index written by its coordinates.

  A softmax over the last axis of a four-dimensional array takes, for each `(j, k, p)`, the maximum of the `b` entries
  `(j, k, p, c)`. At the ideal values the host's reduction is the fold of `max`, from the initial value, over `c : Fin b`
  of those entries: no order of evaluation is left in it. Nothing here mentions a program.
-/
import Idealize.ShloMosaic.PureOps.Ideal.Laws
import Idealize.ShloMosaic.Lib.Pipeline.Value
import Idealize.ShloMosaic.Lib.ValueIdx

namespace Cert.LastAxisMax4

open Idealize.ShloMosaic Idealize.ShloMosaic.ValueIdx

variable {φ : FTy}

/-- The host's maximum over the LAST axis of an `[m, n, a, b]` array, at `(j, k, p)`: the fold of `max`, from the initial
    value, over `c : Fin b` of the entries `(j, k, p, c)`. The reduction drops axis 3; the index it reads for the
    coordinate `c` is `(j, k, p)` with `c` inserted last, which is `(j, k, p, c)` coordinate by coordinate. -/
theorem hostLastMax4_apply {m n a b : ℕ} {u : Shape} (x : (⟨4, ![m, n, a, b]⟩ : Shape).Idx → Ideal φ)
    (init : u.Idx → Ideal φ)
    (h' : (⟨4, ![m, n, a, b]⟩ : Shape).ReducesTo [3] ⟨3, ![m, n, a]⟩)
    (h : (⟨4, ![m, n, a, b]⟩ : Shape).Reduces [3] ⟨3, ![m, n, a]⟩)
    (hu : 0 < u.numel) (j : Fin m) (k : Fin n) (p : Fin a) :
    Host.reduce (FloatOps.maximumf (F := Ideal) (φ := φ)) x init h' hu (ix3 j k p)
      = (Finset.univ : Finset (Fin b)).fold max (init (Shape.Idx.first hu)) (fun c => x (ix4 j k p c)) := by
  refine (Host.reduce_eq_fold_single (FloatOps.maximumf (F := Ideal) (φ := φ)) x init h' h hu (ix3 j k p)).trans ?_
  show (Finset.univ : Finset (Fin b)).fold max (init (Shape.Idx.first hu)) (fun c => x (h.lift (ix3 j k p) c)) = _
  refine congrArg (fun f => (Finset.univ : Finset (Fin b)).fold max (init (Shape.Idx.first hu)) f) (funext fun c => ?_)
  exact congrArg x (funext fun ax => Fin.ext (by
    match ax with | ⟨0, _⟩ => rfl | ⟨1, _⟩ => rfl | ⟨2, _⟩ => rfl | ⟨3, _⟩ => rfl))

end Cert.LastAxisMax4
-- ==== Proof.RefAttention.lean ====
/-
  The reference program computes masked softmax attention.

  Stage by stage, read at an index written by its coordinates: the product of the queries with the keys contracts the
  last axes, so its entry (b, h, q, k) is the inner product of row q of Q(b, h) with row k of K(b, h); scaled and
  masked it is the row's score of key k. The maximum over the last axis is the fold of `max` over the keys from −∞, and
  the further `max` against −∞ the program takes changes nothing. The exponentials, their sum over the last axis (from
  the zero word), the quotient and the product with the values are then the row's unnormalised weights, normaliser,
  weights and context. So the program's two results are the layer's context and weights.
-/
import proofs.«176946_j22909355557453_2_alg».proof.Proof.Gen.ReferenceIdeal.Read
import proofs.«176946_j22909355557453_2_alg».proof.Proof.Attention
import proofs.«176946_j22909355557453_2_alg».proof.Proof.LibLastAxisMax4

noncomputable section

namespace Cert.ReferenceIdeal.RefValue

open Cert.ReferenceIdeal Cert.ReferenceIdeal.Gen Cert.ReferenceIdeal.Read
open Idealize.ShloMosaic Idealize.ShloMosaic.ValueIdx Cert.Attention

variable (x0 x1 x2 : (⟨S2x16x2048x64, .f32⟩ : BufTy).Contents (Elt Ideal))
  (x3 : (⟨S2x16x2048x2048, .i1⟩ : BufTy).Contents (Elt Ideal))

/-! ## The stages' index maps at coordinates -/

theorem lidx_scores (b : Fin 2) (h : Fin 16) (q k : Fin 2048) (d : Fin 64) :
    lidx_main_v0 (ix4 b h q k) d = ix4 b h q d :=
  funext fun a => Fin.ext (by match a with | ⟨0, _⟩ => rfl | ⟨1, _⟩ => rfl | ⟨2, _⟩ => rfl | ⟨3, _⟩ => rfl)

theorem ridx_scores (b : Fin 2) (h : Fin 16) (q k : Fin 2048) (d : Fin 64) :
    ridx_main_v0 (ix4 b h q k) d = ix4 b h k d :=
  funext fun a => Fin.ext (by match a with | ⟨0, _⟩ => rfl | ⟨1, _⟩ => rfl | ⟨2, _⟩ => rfl | ⟨3, _⟩ => rfl)

theorem idx_max_spread (b : Fin 2) (h : Fin 16) (q k : Fin 2048) :
    idx_main_v7 (idx_main_v8 (ix4 b h q k)) = ix3 b h q :=
  funext fun a => Fin.ext (by match a with | ⟨0, _⟩ => rfl | ⟨1, _⟩ => rfl | ⟨2, _⟩ => rfl)

theorem idx_sum_lane (b : Fin 2) (h : Fin 16) (q k : Fin 2048) :
    idx_main_v11 (ix3 b h q) k = ix4 b h q k :=
  funext fun a => Fin.ext (by match a with | ⟨0, _⟩ => rfl | ⟨1, _⟩ => rfl | ⟨2, _⟩ => rfl | ⟨3, _⟩ => rfl)

theorem idx_sum_spread (b : Fin 2) (h : Fin 16) (q k : Fin 2048) :
    idx_main_v12 (idx_main_v13 (ix4 b h q k)) = ix3 b h q :=
  funext fun a => Fin.ext (by match a with | ⟨0, _⟩ => rfl | ⟨1, _⟩ => rfl | ⟨2, _⟩ => rfl)

theorem lidx_context (b : Fin 2) (h : Fin 16) (q : Fin 2048) (d : Fin 64) (k : Fin 2048) :
    lidx_main_v15 (ix4 b h q d) k = ix4 b h q k :=
  funext fun a => Fin.ext (by match a with | ⟨0, _⟩ => rfl | ⟨1, _⟩ => rfl | ⟨2, _⟩ => rfl | ⟨3, _⟩ => rfl)

theorem ridx_context (b : Fin 2) (h : Fin 16) (q : Fin 2048) (d : Fin 64) (k : Fin 2048) :
    ridx_main_v15 (ix4 b h q d) k = ix4 b h k d :=
  funext fun a => Fin.ext (by match a with | ⟨0, _⟩ => rfl | ⟨1, _⟩ => rfl | ⟨2, _⟩ => rfl | ⟨3, _⟩ => rfl)

/-! ## The stages -/

/-- The masked, scaled product of the queries with the keys is the rows' scores. -/
theorem score_eq (b : Fin 2) (h : Fin 16) (q k : Fin 2048) :
    val_main_v3 (F := Ideal) x0 x1 x3 (ix4 b h q k) = score (rowOf x0 b h q) (matOf x1 b h) (rowOf x3 b h q) k := by
  rw [val_main_v3_apply, val_main_call0_v1_apply, val_main_call0_v0_apply, val_main_cst_0_apply, val_main_v2_apply,
    val_main_v0_apply, val_main_v1_apply, val_main_cst_apply]
  simp only [lidx_scores, ridx_scores, Ideal.ofBits_def, Ideal.mulf_def]
  rfl

/-- The maximum over the last axis, taken once more against −∞, is the row's largest score. -/
theorem rowMax_eq (b : Fin 2) (h : Fin 16) (q : Fin 2048) :
    val_main_v6 (F := Ideal) x0 x1 x3 (ix3 b h q) = rowMax (rowOf x0 b h q) (matOf x1 b h) (rowOf x3 b h q) := by
  rw [val_main_v6_apply, val_main_v5_apply, val_main_cst_2_apply]
  unfold val_main_v4
  rw [Cert.LastAxisMax4.hostLastMax4_apply _ _ _ (by decide) _ b h q, val_main_cst_1_apply]
  simp only [score_eq, Ideal.ofBits_def, Ideal.maximumf_def]
  exact max_fold_max_self _ _ _

/-- The exponential of a score less the row's maximum is the unnormalised weight. -/
theorem unnorm_eq (b : Fin 2) (h : Fin 16) (q k : Fin 2048) :
    val_main_v10 (F := Ideal) x0 x1 x3 (ix4 b h q k) = unnorm (rowOf x0 b h q) (matOf x1 b h) (rowOf x3 b h q) k := by
  rw [val_main_v10_apply, val_main_v9_apply, val_main_v8_apply, val_main_v7_apply, idx_max_spread, rowMax_eq, score_eq]
  rfl

/-- The sum over the last axis, from the zero word, is the row's normaliser. -/
theorem rowSum_eq (b : Fin 2) (h : Fin 16) (q : Fin 2048) :
    val_main_v11 (F := Ideal) x0 x1 x3 (ix3 b h q) = rowSum (rowOf x0 b h q) (matOf x1 b h) (rowOf x3 b h q) := by
  rw [val_main_v11_apply, val_main_cst_3_apply]
  simp only [idx_sum_lane, unnorm_eq, Ideal.ofBits_def, Ideal.ofBits_zero_f32, zero_add]
  rfl

/-- The quotient is the weight. -/
theorem weight_eq (b : Fin 2) (h : Fin 16) (q k : Fin 2048) :
    val_main_v14 (F := Ideal) x0 x1 x3 (ix4 b h q k) = weight (rowOf x0 b h q) (matOf x1 b h) (rowOf x3 b h q) k := by
  rw [val_main_v14_apply, val_main_v13_apply, val_main_v12_apply, idx_sum_spread, rowSum_eq, unnorm_eq]
  rfl

/-! ## The two results -/

/-- The program's second result is the layer's weights. -/
theorem weights_eq : val_main_v14 (F := Ideal) x0 x1 x3 = weights x0 x1 x3 := by
  funext i
  obtain ⟨b, h, q, k, rfl⟩ : ∃ (b : Fin 2) (h : Fin 16) (q k : Fin 2048), i = ix4 b h q k :=
    ⟨i 0, i 1, i 2, i 3, eq_ix4 i⟩
  rw [weight_eq, weights_apply]

/-- The program's first result is the layer's context. -/
theorem contexts_eq : val_main_v15 (F := Ideal) x0 x1 x2 x3 = contexts x0 x1 x2 x3 := by
  funext i
  obtain ⟨b, h, q, d, rfl⟩ : ∃ (b : Fin 2) (h : Fin 16) (q : Fin 2048) (d : Fin 64), i = ix4 b h q d :=
    ⟨i 0, i 1, i 2, i 3, eq_ix4 i⟩
  rw [val_main_v15_apply, contexts_apply]
  simp only [lidx_context, ridx_context, weight_eq]
  rfl

end Cert.ReferenceIdeal.RefValue

end
-- ==== Proof.lean ====
/-
  Masked softmax attention, computed block by block on the chip and all at once on the host, is one function.

  For queries, keys and values `Q K V : [2, 16, 2048, 64]` and a mask of bits `[2, 16, 2048, 2048]`, both programs return
  the context and the weights of the layer (Proof/Attention.lean): per batch, head and query, the scores against the 2048
  keys are the inner products scaled by 1/8 with the fill −10⁹ where the mask is set; the weights are the exponentials of
  the scores less their maximum, divided by their sum; the context is the weights times the values.

  The kernel visits a grid of 2 × 16 × 4 points, one per batch, head and block of 512 queries, holding that block of
  queries and of the mask together with all keys and values of the batch and head, and writes back that block of the
  weights and of the context; the blocks tile the two result arrays (Proof/KernelRow.lean, Proof/KernelArray.lean). The
  reference takes the same steps on whole arrays; the only step of its own, a maximum taken once more against −∞, changes
  nothing (Proof/RefAttention.lean). On the extended reals a change of float format is the identity and a product of
  matrices is the sum of the entries' products whichever unit forms it, so the two sides agree entry by entry with no
  appeal to the inputs being finite. The idealized kernel is the kernel's own text read on the extended reals: nothing was
  rewritten, so there is nothing to preserve.
-/
import proofs.«176946_j22909355557453_2_alg».proof.Defs
import proofs.«176946_j22909355557453_2_alg».proof.Proof.Gen.Kernel
import proofs.«176946_j22909355557453_2_alg».proof.Proof.Gen.Kernel.Skeleton
import proofs.«176946_j22909355557453_2_alg».proof.Proof.Gen.Kernel.Launch
import proofs.«176946_j22909355557453_2_alg».proof.Proof.Gen.Kernel.Points
import proofs.«176946_j22909355557453_2_alg».proof.Proof.Gen.Kernel.Frame
import proofs.«176946_j22909355557453_2_alg».proof.Proof.Gen.KernelIdeal
import proofs.«176946_j22909355557453_2_alg».proof.Proof.Gen.KernelIdeal.Skeleton
import proofs.«176946_j22909355557453_2_alg».proof.Proof.Gen.KernelIdeal.Launch
import proofs.«176946_j22909355557453_2_alg».proof.Proof.Gen.KernelIdeal.Points
import proofs.«176946_j22909355557453_2_alg».proof.Proof.Gen.KernelIdeal.Frame
import proofs.«176946_j22909355557453_2_alg».proof.Proof.Gen.ReferenceIdeal
import proofs.«176946_j22909355557453_2_alg».proof.Proof.Gen.Pre_finite_inputs
import proofs.«176946_j22909355557453_2_alg».proof.Proof.Gen.KernelIdeal.Value
import proofs.«176946_j22909355557453_2_alg».proof.Proof.Gen.ReferenceIdeal.Run
import proofs.«176946_j22909355557453_2_alg».proof.Proof.Gen.ReferenceIdeal.Read
import proofs.«176946_j22909355557453_2_alg».proof.Proof.KernelArray
import proofs.«176946_j22909355557453_2_alg».proof.Proof.RefAttention
import Idealize.ShloMosaic.Adequacy
import Idealize.ShloMosaic.Init

noncomputable section

namespace Cert.Proof

open Idealize.ShloMosaic Idealize.ShloMosaic.TcCoe Idealize.SL.Sem

/-- The kernel as printed runs to the end and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its two results dropped. -/
theorem frame_reference : Cert.frame_ReferenceIdeal := fun m ρ _ =>
  (θ_run Cert.ReferenceIdeal.defs _ _).mono (fun _ h c => (h c).2.2)
    (Cert.ReferenceIdeal.Value.run (F := Ideal) m ρ)

/-- Both programs end with the layer's context and weights of the arguments, which agree. -/
theorem algebraic : Cert.algebraic_KernelIdeal_ReferenceIdeal := by
  intro m ρ m' ρ' _ hagree
  refine ⟨_, _, Cert.KernelIdeal.ArrayValue.run m ρ, ?_⟩
  refine (θ_run Cert.ReferenceIdeal.defs _ _).mono (fun _ h c => ?_)
    (Cert.ReferenceIdeal.Value.run (F := Ideal) m' ρ')
  obtain ⟨a0, a1, a2, a3⟩ := hagree c
  refine ⟨(h c).1.trans ?_, (h c).2.1.trans ?_, (h c).2.2⟩
  · rw [Cert.ReferenceIdeal.Read.val_main_v15_eq, Cert.ReferenceIdeal.RefValue.contexts_eq, a0, a1, a2, a3]
  · rw [Cert.ReferenceIdeal.Read.val_main_v14_eq, Cert.ReferenceIdeal.RefValue.weights_eq, a0, a1, a3]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
